-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 79
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .bf16⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .bf16⟩
  | .hbm, ⟨49, _⟩ => ⟨S1700000x64, .f32⟩
  | .hbm, ⟨50, _⟩ => ⟨S1700000x1, .f32⟩
  | .hbm, ⟨51, _⟩ => ⟨S1700000x64, .f32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S1x64, .f32⟩
  | .hbm, ⟨58, _⟩ => ⟨S100000x64, .bf16⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .bf16⟩
  | .hbm, ⟨68, _⟩ => ⟨S1700000x64, .f32⟩
  | .hbm, ⟨69, _⟩ => ⟨S1700000x1, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .bf16⟩
  | .local _ .vmem, ⟨10, _⟩ => ⟨S5000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000, .i32⟩
  | .hbm, ⟨64, _⟩ => ⟨S1700000, .i32⟩
  | .hbm, ⟨65, _⟩ => ⟨S1700000, .i32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Run.lean ====
/- The idealized kernel's run, with its result named.  The program is five segments: the host operations that build the
   edge lists and the edge weights, the first blocked matrix product, the host aggregation, the second blocked product,
   and the last aggregation with its bias.  Every weakly fair execution ends with each unscoped buffer at the contents
   the last segment leaves (`Gen.W5`); read at the result buffer that is the value of the kernel, and read at an argument
   it is the argument as launched. -/
import proofs.«104894_j34067680592104_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at what the
    last host segment leaves there and the six arguments as launched. -/
theorem run : θ_run defs (onTc (τ := τ) (main (F := F))) ⟨m, fun _ => 0, ρ⟩ (fun r => ∀ c : Dev nD,
      r.2.mem ((c.tc : Thread nD τ).loc main_v60) = W5 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v60 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Result

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.Mat0.lean ====
/- The first blocked product.  Region 0 runs over 20 points; point `t` reads rows `5000 t … 5000 t + 4999` of the
   [100000, 128] left operand and the whole [128, 64] right operand, and writes the same rows of the [100000, 64] output:
   entry `(r, q)` of a block is the sum over `k` of left`(r, k)` times right`(k, q)`.  A row of the output therefore
   depends on that row of the left operand only, and the array the region leaves is the whole product: the host's
   `dot_general` of the two arrays as the region finds them.  (Rounding to a shorter float format on the way in and on the
   way out is the identity on the extended reals.) -/
import proofs.«104894_j34067680592104_2_alg».proof.Proof.Gen.KernelIdeal.Frame
import proofs.«104894_j34067680592104_2_alg».proof.Proof.Gen.ReferenceIdeal.Read
import proofs.«104894_j34067680592104_2_alg».proof.Proof.LibMatmulPlain
import Idealize.ShloMosaic.Lib.Pipeline.Value
import Idealize.ShloMosaic.Lib.ValueIdx

set_option maxRecDepth 16384

noncomputable section

open scoped BigOperators

namespace Cert.KernelIdeal.Mat0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The offset of a store or load that takes the whole staging buffer. -/
theorem origin : (![0, 0] : Fin 2 → Nat) = fun _ => 0 := funext fun a => by fin_cases a <;> rfl

/-- What the body stores, at an entry of the block: the sum over the contracted axis. -/
theorem stored_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.LibMatmulPlain.matmul_zero_apply dot_S5000x128_S128x64_S5000x64_1_0_0_1_n_n rfl rfl rfl rfl rfl rfl none
    (truncf .bf16 x0 bitsLt_bf16_f32) (truncf .bf16 x1 bitsLt_bf16_f32) p q

/-- The printed index maps over the 20 points: the left operand's block and the output's block are the same block of
    rows, and every other block index is zero. -/
theorem blocks : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- The whole product of the two arrays the region reads, as the host computes it. -/
abbrev product (c : Dev nD) : Buf (Elt Ideal) ((c : Thread nD τ).loc main_v27) :=
  Cert.ReferenceIdeal.Read.val_main_v4 (F := Ideal) (V c main_arg0) (V c main_arg2)

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4, e5⟩ := blocks t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = Cert.ReferenceIdeal.Read.val_main_v4 (F := Ideal) (V c main_arg0) (V c main_arg2) (((cfg0.win 2).blk t).view.emb (ix2 p q))
  rw [stored_apply (iblk0 V c 0 t) (iblk0 V c 1 t) p q, Cert.ReferenceIdeal.Read.val_main_v4_apply]
  refine Finset.sum_congr rfl fun k _ => ?_
  have hl : ((cfg0.win 0).blk t).view.emb (ix2 p k)
      = Cert.ReferenceIdeal.Read.lidx_main_v4 (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hr : ((cfg0.win 1).blk t).view.emb (ix2 k q)
      = Cert.ReferenceIdeal.Read.ridx_main_v4 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have key : ∀ (A : (⟨S100000x128, .f32⟩ : BufTy).Contents (Elt Ideal)) (B : (⟨S128x64, .f32⟩ : BufTy).Contents (Elt Ideal)),
      A (((cfg0.win 0).blk t).view.emb (ix2 p k)) * B (((cfg0.win 1).blk t).view.emb (ix2 k q))
        = A (Cert.ReferenceIdeal.Read.lidx_main_v4 (((cfg0.win 2).blk t).view.emb (ix2 p q)) k)
          * B (Cert.ReferenceIdeal.Read.ridx_main_v4 (((cfg0.win 2).blk t).view.emb (ix2 p q)) k) :=
    fun A B => by rw [hl, hr]
  exact key (V c main_arg0) (V c main_arg2)

/-- An index of the output array lies in point `t`'s block exactly when its row does. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every row belongs to the block of the point numbered by its quotient by 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 5000, by show (i 0).val / 5000 < 20; omega⟩, flush0_2 _, ?_⟩
  obtain ⟨e0, e1, e2, e3, e4, e5⟩ := blocks ⟨(i 0).val / 5000, by show (i 0).val / 5000 < 20; omega⟩
  rw [mem_block]
  intro a
  match a with
  | ⟨0, _⟩ => show win0_2.index _ (0 : Fin 2) * 5000 ≤ (i 0).val ∧ (i 0).val < win0_2.index _ (0 : Fin 2) * 5000 + 5000; rw [e5]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e4]; omega

/-- The array region 0 leaves is the whole product of the arrays it found. -/
theorem array_eq (c : Dev nD) : (dat0 V c).arrAt 2 cfg0.N = product V c :=
  (dat0 V c).arrAt_eq_of_cover 2 (product V c) (fun t _ => flushed_eq V c t) (cover)

end Cert.KernelIdeal.Mat0

end
-- ==== Proof.Mat1.lean ====
/- The second blocked product, with the first layer's bias and relu in front.  Region 1 runs over 20 points; point `t`
   reads rows `5000 t … 5000 t + 4999` of a [100000, 64] array `A`, one row [1, 64] of biases and a whole [64, 64] weight
   `w`, and writes the same rows of the [100000, 64] output: entry `(r, q)` of a block is the sum over `k` of
   `max (A (r, k) + bias k) 0` times `w (k, q)`.  A row of the output depends on that row of `A` only, so the array the
   region leaves is the host's `dot_general` of the rectified, biased `A` by `w`. -/
import proofs.«104894_j34067680592104_2_alg».proof.Proof.Gen.KernelIdeal.Frame
import proofs.«104894_j34067680592104_2_alg».proof.Proof.Gen.ReferenceIdeal.Read
import proofs.«104894_j34067680592104_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Mat1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The layer as the host computes it, over any three arrays -/

section Layer

variable (A : (⟨Cert.ReferenceIdeal.S100000x64, .f32⟩ : BufTy).Contents (Elt Ideal)) (brow : (⟨Cert.ReferenceIdeal.S1x64, .f32⟩ : BufTy).Contents (Elt Ideal))
  (w : (⟨Cert.ReferenceIdeal.S64x64, .f32⟩ : BufTy).Contents (Elt Ideal))

/-- `max (A + bias) 0`, the bias row laid over the 100000 rows. -/
def hidden : (⟨Cert.ReferenceIdeal.S100000x64, .f32⟩ : BufTy).Contents (Elt Ideal) :=
  maximumf (F := Ideal) (s := Cert.ReferenceIdeal.S100000x64) (φ := .f32)
    (addf (F := Ideal) (s := Cert.ReferenceIdeal.S100000x64) (φ := .f32) A (broadcastInDim Cert.ReferenceIdeal.S100000x64 ![0, 1] Cert.ReferenceIdeal.Gen.bcast_S1x64_S100000x64_0_1 brow))
    (Cert.ReferenceIdeal.Read.val_main_call0_v0 (F := Ideal))

/-- At an entry: the entry of `A` plus the bias of its column, cut off below at zero. -/
theorem hidden_apply (j : Cert.ReferenceIdeal.S100000x64.Idx) :
    hidden A brow j = max (A j + brow (Cert.ReferenceIdeal.Read.idx_main_v42 j)) (Ideal.ofBits .f32 0x00000000#32) := by
  unfold hidden
  rw [maximumf_apply, addf_apply, Cert.ReferenceIdeal.Read.val_main_call0_v0_apply, Cert.ReferenceIdeal.Read.val_main_call0_cst_apply,
    broadcastInDim_apply _ Cert.ReferenceIdeal.Gen.bcast_S1x64_S100000x64_0_1 brow j (Cert.ReferenceIdeal.Read.idx_main_v42 j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])]
  rfl

/-- The rectified, biased `A` times `w`. -/
def layer : (⟨Cert.ReferenceIdeal.S100000x64, .f32⟩ : BufTy).Contents (Elt Ideal) :=
  Host.dotGeneral (F := Ideal) (φ₁ := .f32) (φ₂ := .f32) Cert.ReferenceIdeal.dot_S100000x64_S64x64_S100000x64_1_0_0_1_n_n none (hidden A brow) w

/-- At an entry `(r, q)`: the sum over `k` of `max (A (r, k) + bias k) 0 * w (k, q)`. -/
theorem layer_apply (i : Cert.ReferenceIdeal.S100000x64.Idx) :
    layer A brow w i = ∑ k : Fin 64, max (A (Cert.ReferenceIdeal.Read.lidx_main_v45 i k) + brow (Cert.ReferenceIdeal.Read.idx_main_v42 (Cert.ReferenceIdeal.Read.lidx_main_v45 i k)))
        (Ideal.ofBits .f32 0x00000000#32) * w (Cert.ReferenceIdeal.Read.ridx_main_v45 i k) := by
  unfold layer
  generalize hy : hidden A brow = y0
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : (Cert.ReferenceIdeal.dot_S100000x64_S64x64_S100000x64_1_0_0_1_n_n).lhsIdx i ((contrEquiv1 Cert.ReferenceIdeal.dot_S100000x64_S64x64_S100000x64_1_0_0_1_n_n 64 rfl rfl).symm k) = Cert.ReferenceIdeal.Read.lidx_main_v45 i k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : (Cert.ReferenceIdeal.dot_S100000x64_S64x64_S100000x64_1_0_0_1_n_n).rhsIdx i ((contrEquiv1 Cert.ReferenceIdeal.dot_S100000x64_S64x64_S100000x64_1_0_0_1_n_n 64 rfl rfl).symm k) = Cert.ReferenceIdeal.Read.ridx_main_v45 i k := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er, ← hy, hidden_apply]

end Layer

/-! ## The kernel's body -/

/-- The offset of a store or load that takes the whole staging buffer. -/
theorem origin : (![0, 0] : Fin 2 → Nat) = fun _ => 0 := funext fun a => by fin_cases a <;> rfl

/-- What the body stores, at an entry of the block: the sum over the contracted axis of the rectified, biased left
    entry times the weight's entry. -/
theorem stored_apply (x0 : Vec Ideal S5000x64 .f32) (x1 : Vec Ideal S1x64 .f32) (x2 : Vec Ideal S64x64 .f32) (p : Fin 5000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1 matmul
  rw [truncf_apply, Cert.LibMatmulPlain.matmul_zero_apply dot_S5000x64_S64x64_S5000x64_1_0_0_1_n_n rfl rfl rfl rfl rfl rfl none _ _ p q]
  refine Finset.sum_congr rfl fun k _ => ?_
  rw [truncf_apply, truncf_apply, maximumf_apply, addf_apply, broadcast_apply, shapeCast_self, shapeCast_self,
    broadcastTo_1b_ab_apply]
  rfl

/-- The printed index maps over the 20 points: the left operand's block and the output's block are the same block of
    rows, and every other block index is zero. -/
theorem blocks : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-! ## The array the region leaves -/

variable (V : (c : Dev nD) → (b : Ref sig .tc) → Buf (Elt Ideal) ((c : Thread nD τ).loc b))

/-- The layer of the three arrays the region finds. -/
abbrev product (c : Dev nD) : Buf (Elt Ideal) ((c : Thread nD τ).loc main_v43) :=
  layer (V c main_v41) (V c main_v42) (V c main_arg4)

/-- What point `t` writes back is block `t` of that layer. -/
theorem flushed_eq (c : Dev nD) (t : Fin cfg1.N) :
    (dat1 V c).flushed 3 t = ((cfg1.win 3).blk t).view.read (Elt Ideal) (product V c) := by
  show (cfg1.win 3).cut (grid1.coords t) ((dat1 V c).after 3 t) = _
  rw [after1_3]
  unfold out1_3
  rw [View.canon_unit_zero origin]
  simp only [View.ld_unit_zero (S := S5000x64) origin, View.ld_unit_zero (S := S1x64) origin, View.ld_unit_zero (S := S64x64) origin]
  obtain ⟨e0, e1, e2, e3, e4, e5, e6, e7⟩ := blocks t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
    = layer (V c main_v41) (V c main_v42) (V c main_arg4) (((cfg1.win 3).blk t).view.emb (ix2 p q))
  rw [stored_apply (iblk1 V c 0 t) (iblk1 V c 1 t) (iblk1 V c 2 t) p q, layer_apply]
  refine Finset.sum_congr rfl fun k _ => ?_
  have h0 : ((cfg1.win 0).blk t).view.emb (ix2 p k)
      = Cert.ReferenceIdeal.Read.lidx_main_v45 (((cfg1.win 3).blk t).view.emb (ix2 p q)) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have h1 : ((cfg1.win 1).blk t).view.emb (ix2 (0 : Fin 1) k)
      = Cert.ReferenceIdeal.Read.idx_main_v42 (Cert.ReferenceIdeal.Read.lidx_main_v45 (((cfg1.win 3).blk t).view.emb (ix2 p q)) k) := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k q)
      = Cert.ReferenceIdeal.Read.ridx_main_v45 (((cfg1.win 3).blk t).view.emb (ix2 p q)) k := by
    funext a; apply Fin.ext
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  have key : ∀ (A : (⟨S100000x64, .f32⟩ : BufTy).Contents (Elt Ideal)) (b : (⟨S1x64, .f32⟩ : BufTy).Contents (Elt Ideal))
      (w : (⟨S64x64, .f32⟩ : BufTy).Contents (Elt Ideal)),
      max (A (((cfg1.win 0).blk t).view.emb (ix2 p k)) + b (((cfg1.win 1).blk t).view.emb (ix2 (0 : Fin 1) k)))
          (Ideal.ofBits .f32 0x00000000#32) * w (((cfg1.win 2).blk t).view.emb (ix2 k q))
        = max
            (A (Cert.ReferenceIdeal.Read.lidx_main_v45 (((cfg1.win 3).blk t).view.emb (ix2 p q)) k)
              + b (Cert.ReferenceIdeal.Read.idx_main_v42 (Cert.ReferenceIdeal.Read.lidx_main_v45 (((cfg1.win 3).blk t).view.emb (ix2 p q)) k)))
            (Ideal.ofBits .f32 0x00000000#32)
          * w (Cert.ReferenceIdeal.Read.ridx_main_v45 (((cfg1.win 3).blk t).view.emb (ix2 p q)) k) :=
    fun A b w => by rw [h0, h1, h2]
  exact key (V c main_v41) (V c main_v42) (V c main_arg4)

/-- An index of the output array lies in point `t`'s block exactly when its row does. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v43).slice (win1_3.rect t)).set ↔ _
  rw [View.set_slice_whole, Rect.mem_set_unit]
  exact Iff.rfl

/-- Every row belongs to the block of the point numbered by its quotient by 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  refine ⟨⟨(i 0).val / 5000, by show (i 0).val / 5000 < 20; omega⟩, flush1_3 _, ?_⟩
  obtain ⟨e0, e1, e2, e3, e4, e5, e6, e7⟩ := blocks ⟨(i 0).val / 5000, by show (i 0).val / 5000 < 20; omega⟩
  rw [mem_block]
  intro a
  match a with
  | ⟨0, _⟩ => show win1_3.index _ (0 : Fin 2) * 5000 ≤ (i 0).val ∧ (i 0).val < win1_3.index _ (0 : Fin 2) * 5000 + 5000; rw [e7]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e6]; omega

/-- The array region 1 leaves is the layer of the arrays it found. -/
theorem array_eq (c : Dev nD) : (dat1 V c).arrAt 3 cfg1.N = product V c :=
  (dat1 V c).arrAt_eq_of_cover 3 (product V c) (fun t _ => flushed_eq V c t) cover

end Cert.KernelIdeal.Mat1

end
-- ==== Proof.Walk.lean ====
/- From the launch memory to the result.  The kernel's host program builds, from the edge array alone, the two edge lists
   with one self-loop per node appended and the edge weights; region 0 forms the first product; a host stretch gathers its
   rows along the source list, scales each by its edge weight and adds it into its destination row; region 1 adds the bias,
   rectifies and forms the second product; a last stretch aggregates again and adds the second bias.  The reference does the
   same on the host, building the lists and the weights a second time for its second layer.

   The aggregation is named once, as a function of the two lists, the weights and the rows it gathers, and is never opened:
   both programs apply it to equal arguments.  The contents of the few buffers the result depends on are followed through
   the five segments — a buffer a segment does not write keeps its contents — until each is a stage of the reference. -/
import proofs.«104894_j34067680592104_2_alg».proof.Proof.Gen.KernelIdeal.Frame
import proofs.«104894_j34067680592104_2_alg».proof.Proof.Gen.ReferenceIdeal.Read
import proofs.«104894_j34067680592104_2_alg».proof.Proof.Mat0
import proofs.«104894_j34067680592104_2_alg».proof.Proof.Mat1
import Idealize.ShloMosaic.Lib.StableHlo.Run
import Idealize.ShloMosaic.Lib.ValueIdx
import Idealize.ShloMosaic.Lib.ValueLayout

set_option maxRecDepth 16384

noncomputable section

namespace Cert.KernelIdeal.Walk

open Cert.KernelIdeal Cert.KernelIdeal.Gen
open Idealize.ShloMosaic Idealize.ShloMosaic.TcCoe Idealize.ShloMosaic.ValueIdx Idealize.ShloMosaic.StableHlo
open Idealize.SL Idealize.SL.Sem

/-! ## The aggregation -/

/-- Row `v` of the result is the sum, over the edges `e` whose destination `dst e` is `v`, of the weight `wt e` times row
    `src e` of `h` (a negative source counted from the end, as the host reads it): a gather of the rows of `h` along
    `src`, each scaled by its weight, scattered by addition into zeros along `dst`. -/
def agg (src dst : (⟨S1700000, .i32⟩ : BufTy).Contents (Elt Ideal)) (wt : (⟨S1700000, .f32⟩ : BufTy).Contents (Elt Ideal))
    (h : (⟨S100000x64, .f32⟩ : BufTy).Contents (Elt Ideal)) : (⟨S100000x64, .f32⟩ : BufTy).Contents (Elt Ideal) :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf
      (Host.gather gather_S100000x64_S1700000x1_S1700000x64_1_0_n_n_0_1_164 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x64 ![0, 1] bcast_S1700000x1_S1700000x64_0_1
        (broadcastInDim S1700000x1 ![0] bcast_S1700000_S1700000x1_0 wt)))

/-- A bias of 64 entries laid over the 100000 rows. -/
def rows (b : (⟨S64, .f32⟩ : BufTy).Contents (Elt Ideal)) : (⟨S100000x64, .f32⟩ : BufTy).Contents (Elt Ideal) :=
  broadcastInDim S100000x64 ![0, 1] bcast_S1x64_S100000x64_0_1 (broadcastInDim S1x64 ![1] bcast_S64_S1x64_1 b)

/-! ## The reference's stages are the same aggregation -/

section Reference

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x64, .f32⟩ : BufTy).Contents (Elt Ideal))
  (x3 : (⟨Cert.ReferenceIdeal.S64, .f32⟩ : BufTy).Contents (Elt Ideal))
  (x4 : (⟨Cert.ReferenceIdeal.S64x64, .f32⟩ : BufTy).Contents (Elt Ideal))
  (x5 : (⟨Cert.ReferenceIdeal.S64, .f32⟩ : BufTy).Contents (Elt Ideal))

/-- The first layer's aggregate: of the first product, along the lists and weights built from the edge array. -/
theorem ref_agg1 : Cert.ReferenceIdeal.Read.val_main_v40 (F := Ideal) x0 x1 x2
    = agg (Cert.ReferenceIdeal.Read.val_main_v6 x1) (Cert.ReferenceIdeal.Read.val_main_v7 x1) (Cert.ReferenceIdeal.Read.val_main_v27 x1) (Cert.ReferenceIdeal.Read.val_main_v4 x0 x2) := rfl

/-- The second layer's aggregate: the lists and weights it builds again are the first layer's. -/
theorem ref_agg2 : Cert.ReferenceIdeal.Read.val_main_v81 (F := Ideal) x0 x1 x2 x3 x4
    = agg (Cert.ReferenceIdeal.Read.val_main_v6 x1) (Cert.ReferenceIdeal.Read.val_main_v7 x1) (Cert.ReferenceIdeal.Read.val_main_v27 x1) (Cert.ReferenceIdeal.Read.val_main_v45 x0 x1 x2 x3 x4) := rfl

/-- The reference's second product is the layer of its first aggregate, its bias row and its second weight. -/
theorem ref_layer : Mat1.layer (Cert.ReferenceIdeal.Read.val_main_v40 (F := Ideal) x0 x1 x2) (Cert.ReferenceIdeal.Read.val_main_v41 (F := Ideal) x3) x4
    = Cert.ReferenceIdeal.Read.val_main_v45 (F := Ideal) x0 x1 x2 x3 x4 := rfl

/-- The reference's result. -/
theorem ref_result : Cert.ReferenceIdeal.Read.val_main_v84 (F := Ideal) x0 x1 x2 x3 x4 x5
    = addf (F := Ideal) (s := S100000x64) (φ := .f32) (agg (Cert.ReferenceIdeal.Read.val_main_v6 x1) (Cert.ReferenceIdeal.Read.val_main_v7 x1) (Cert.ReferenceIdeal.Read.val_main_v27 x1) (Cert.ReferenceIdeal.Read.val_main_v45 x0 x1 x2 x3 x4)) (rows x5) := by
  rw [← ref_agg2 x0 x1 x2 x3 x4]; rfl

/-- A vector of 64 entries as one row: the kernel's reshape and the reference's broadcast along a new leading axis. -/
theorem row_eq : shapeCast S1x64 x3 shapeCasts_S64_S1x64 = Cert.ReferenceIdeal.Read.val_main_v41 (F := Ideal) x3 := by
  funext i
  obtain ⟨u, k, rfl⟩ : ∃ (u : Fin 1) (k : Fin 64), i = ix2 u k := ⟨i 0, i 1, eq_ix2 i⟩
  rw [Cert.ReferenceIdeal.Read.val_main_v41_apply]
  refine (shapeCast_a_1a_apply x3 shapeCasts_S64_S1x64 u k).trans (congrArg x3 ?_)
  funext a; match a with | ⟨0, _⟩ => rfl

end Reference

/-! ## Each host stretch, from any contents -/

section Stretches

variable (W : Valuation τ sig (Elt Ideal))

/-- The first stretch builds the source list, the destination list and the edge weights from the edge array. -/
theorem built_src : StableHlo.after hostOps0 W (Proc.devRef .tc main_v5) = Cert.ReferenceIdeal.Read.val_main_v6 (F := Ideal) (W (Proc.devRef .tc main_arg1)) := by
  after_results_simp; rfl
theorem built_dst : StableHlo.after hostOps0 W (Proc.devRef .tc main_v6) = Cert.ReferenceIdeal.Read.val_main_v7 (F := Ideal) (W (Proc.devRef .tc main_arg1)) := by
  after_results_simp; rfl
theorem built_wt : StableHlo.after hostOps0 W (Proc.devRef .tc main_v26) = Cert.ReferenceIdeal.Read.val_main_v27 (F := Ideal) (W (Proc.devRef .tc main_arg1)) := by
  after_results_simp; rfl

/-- … and writes none of the float arguments. -/
theorem kept0_arg0 : StableHlo.after hostOps0 W (Proc.devRef .tc main_arg0) = W (Proc.devRef .tc main_arg0) := by after_results_simp
theorem kept0_arg2 : StableHlo.after hostOps0 W (Proc.devRef .tc main_arg2) = W (Proc.devRef .tc main_arg2) := by after_results_simp
theorem kept0_arg3 : StableHlo.after hostOps0 W (Proc.devRef .tc main_arg3) = W (Proc.devRef .tc main_arg3) := by after_results_simp
theorem kept0_arg4 : StableHlo.after hostOps0 W (Proc.devRef .tc main_arg4) = W (Proc.devRef .tc main_arg4) := by after_results_simp
theorem kept0_arg5 : StableHlo.after hostOps0 W (Proc.devRef .tc main_arg5) = W (Proc.devRef .tc main_arg5) := by after_results_simp

/-- The middle stretch aggregates region 0's output and lays the first bias out as a row. -/
theorem mid_agg : StableHlo.after hostOps1 W (Proc.devRef .tc main_v41)
    = agg (W (Proc.devRef .tc main_v5)) (W (Proc.devRef .tc main_v6)) (W (Proc.devRef .tc main_v26)) (W (Proc.devRef .tc main_v27)) := by
  after_results_simp; rfl
theorem mid_row : StableHlo.after hostOps1 W (Proc.devRef .tc main_v42) = shapeCast S1x64 (W (Proc.devRef .tc main_arg3)) shapeCasts_S64_S1x64 := by
  after_results_simp; rfl
theorem kept1_v5 : StableHlo.after hostOps1 W (Proc.devRef .tc main_v5) = W (Proc.devRef .tc main_v5) := by after_results_simp
theorem kept1_v6 : StableHlo.after hostOps1 W (Proc.devRef .tc main_v6) = W (Proc.devRef .tc main_v6) := by after_results_simp
theorem kept1_v26 : StableHlo.after hostOps1 W (Proc.devRef .tc main_v26) = W (Proc.devRef .tc main_v26) := by after_results_simp
theorem kept1_arg4 : StableHlo.after hostOps1 W (Proc.devRef .tc main_arg4) = W (Proc.devRef .tc main_arg4) := by after_results_simp
theorem kept1_arg5 : StableHlo.after hostOps1 W (Proc.devRef .tc main_arg5) = W (Proc.devRef .tc main_arg5) := by after_results_simp

/-- The last stretch aggregates region 1's output and adds the second bias. -/
theorem last_result : StableHlo.after hostOps2 W (Proc.devRef .tc main_v60)
    = addf (F := Ideal) (s := S100000x64) (φ := .f32) (agg (W (Proc.devRef .tc main_v5)) (W (Proc.devRef .tc main_v6)) (W (Proc.devRef .tc main_v26)) (W (Proc.devRef .tc main_v43)))
        (rows (W (Proc.devRef .tc main_arg5))) := by
  after_results_simp; rfl

end Stretches

/-! ## The boundaries, one after the other -/

section Run

variable (m : (ℓ : Loc nD τ sig) → Buf (Elt Ideal) ℓ) (ρ : Dev nD → PrngReg) (c : Dev nD)

/-! ### Entering region 0 -/

theorem W1_src : W1 m ρ c (Proc.devRef .tc main_v5) = Cert.ReferenceIdeal.Read.val_main_v6 (F := Ideal) (m ((c : Thread nD τ).loc main_arg1)) := built_src (W0 m ρ c)
theorem W1_dst : W1 m ρ c (Proc.devRef .tc main_v6) = Cert.ReferenceIdeal.Read.val_main_v7 (F := Ideal) (m ((c : Thread nD τ).loc main_arg1)) := built_dst (W0 m ρ c)
theorem W1_wt : W1 m ρ c (Proc.devRef .tc main_v26) = Cert.ReferenceIdeal.Read.val_main_v27 (F := Ideal) (m ((c : Thread nD τ).loc main_arg1)) := built_wt (W0 m ρ c)
theorem W1_arg0 : W1 m ρ c (Proc.devRef .tc main_arg0) = (m ((c : Thread nD τ).loc main_arg0)) := kept0_arg0 (W0 m ρ c)
theorem W1_arg2 : W1 m ρ c (Proc.devRef .tc main_arg2) = (m ((c : Thread nD τ).loc main_arg2)) := kept0_arg2 (W0 m ρ c)
theorem W1_arg3 : W1 m ρ c (Proc.devRef .tc main_arg3) = (m ((c : Thread nD τ).loc main_arg3)) := kept0_arg3 (W0 m ρ c)
theorem W1_arg4 : W1 m ρ c (Proc.devRef .tc main_arg4) = (m ((c : Thread nD τ).loc main_arg4)) := kept0_arg4 (W0 m ρ c)
theorem W1_arg5 : W1 m ρ c (Proc.devRef .tc main_arg5) = (m ((c : Thread nD τ).loc main_arg5)) := kept0_arg5 (W0 m ρ c)

/-! ### Leaving region 0: its output is the first product, everything else is as it was -/

theorem W2_src : W2 m ρ c (Proc.devRef .tc main_v5) = Cert.ReferenceIdeal.Read.val_main_v6 (F := Ideal) (m ((c : Thread nD τ).loc main_arg1)) := (W2_of_ne m ρ c main_v5 (by decide)).trans (W1_src m ρ c)
theorem W2_dst : W2 m ρ c (Proc.devRef .tc main_v6) = Cert.ReferenceIdeal.Read.val_main_v7 (F := Ideal) (m ((c : Thread nD τ).loc main_arg1)) := (W2_of_ne m ρ c main_v6 (by decide)).trans (W1_dst m ρ c)
theorem W2_wt : W2 m ρ c (Proc.devRef .tc main_v26) = Cert.ReferenceIdeal.Read.val_main_v27 (F := Ideal) (m ((c : Thread nD τ).loc main_arg1)) := (W2_of_ne m ρ c main_v26 (by decide)).trans (W1_wt m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)

theorem W2_product : W2 m ρ c (Proc.devRef .tc main_v27) = Cert.ReferenceIdeal.Read.val_main_v4 (F := Ideal) (m ((c : Thread nD τ).loc main_arg0)) (m ((c : Thread nD τ).loc main_arg2)) := by
  refine (W2_arr m ρ c 2).trans ((Mat0.array_eq (V1 m ρ) c).trans ?_)
  show Cert.ReferenceIdeal.Read.val_main_v4 (F := Ideal) (W1 m ρ c (Proc.devRef .tc main_arg0)) (W1 m ρ c (Proc.devRef .tc main_arg2)) = _
  rw [W1_arg0, W1_arg2]

/-! ### Entering region 1: the first layer's aggregate and the bias row -/

theorem W3_agg : W3 m ρ c (Proc.devRef .tc main_v41) = Cert.ReferenceIdeal.Read.val_main_v40 (F := Ideal) (m ((c : Thread nD τ).loc main_arg0)) (m ((c : Thread nD τ).loc main_arg1)) (m ((c : Thread nD τ).loc main_arg2)) := by
  refine (mid_agg (W2 m ρ c)).trans ?_
  rw [W2_src, W2_dst, W2_wt, W2_product]
  exact (ref_agg1 _ _ _).symm
theorem W3_row : W3 m ρ c (Proc.devRef .tc main_v42) = Cert.ReferenceIdeal.Read.val_main_v41 (F := Ideal) (m ((c : Thread nD τ).loc main_arg3)) := by
  refine (mid_row (W2 m ρ c)).trans ?_
  rw [W2_arg3]
  exact row_eq _
theorem W3_src : W3 m ρ c (Proc.devRef .tc main_v5) = Cert.ReferenceIdeal.Read.val_main_v6 (F := Ideal) (m ((c : Thread nD τ).loc main_arg1)) := (kept1_v5 (W2 m ρ c)).trans (W2_src m ρ c)
theorem W3_dst : W3 m ρ c (Proc.devRef .tc main_v6) = Cert.ReferenceIdeal.Read.val_main_v7 (F := Ideal) (m ((c : Thread nD τ).loc main_arg1)) := (kept1_v6 (W2 m ρ c)).trans (W2_dst m ρ c)
theorem W3_wt : W3 m ρ c (Proc.devRef .tc main_v26) = Cert.ReferenceIdeal.Read.val_main_v27 (F := Ideal) (m ((c : Thread nD τ).loc main_arg1)) := (kept1_v26 (W2 m ρ c)).trans (W2_wt m ρ c)
theorem W3_arg4 : W3 m ρ c (Proc.devRef .tc main_arg4) = (m ((c : Thread nD τ).loc main_arg4)) := (kept1_arg4 (W2 m ρ c)).trans (W2_arg4 m ρ c)
theorem W3_arg5 : W3 m ρ c (Proc.devRef .tc main_arg5) = (m ((c : Thread nD τ).loc main_arg5)) := (kept1_arg5 (W2 m ρ c)).trans (W2_arg5 m ρ c)

/-! ### Leaving region 1: its output is the second product -/

theorem W4_src : W4 m ρ c (Proc.devRef .tc main_v5) = Cert.ReferenceIdeal.Read.val_main_v6 (F := Ideal) (m ((c : Thread nD τ).loc main_arg1)) := (W4_of_ne m ρ c main_v5 (by decide)).trans (W3_src m ρ c)
theorem W4_dst : W4 m ρ c (Proc.devRef .tc main_v6) = Cert.ReferenceIdeal.Read.val_main_v7 (F := Ideal) (m ((c : Thread nD τ).loc main_arg1)) := (W4_of_ne m ρ c main_v6 (by decide)).trans (W3_dst m ρ c)
theorem W4_wt : W4 m ρ c (Proc.devRef .tc main_v26) = Cert.ReferenceIdeal.Read.val_main_v27 (F := Ideal) (m ((c : Thread nD τ).loc main_arg1)) := (W4_of_ne m ρ c main_v26 (by decide)).trans (W3_wt m ρ c)
theorem W4_arg5 : W4 m ρ c (Proc.devRef .tc main_arg5) = (m ((c : Thread nD τ).loc main_arg5)) := (W4_of_ne m ρ c main_arg5 (by decide)).trans (W3_arg5 m ρ c)

theorem W4_product : W4 m ρ c (Proc.devRef .tc main_v43) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ((Mat1.array_eq (V3 m ρ) c).trans ?_)
  show Mat1.layer (W3 m ρ c (Proc.devRef .tc main_v41)) (W3 m ρ c (Proc.devRef .tc main_v42)) (W3 m ρ c (Proc.devRef .tc main_arg4)) = _
  rw [W3_agg, W3_row, W3_arg4]
  exact ref_layer _ _ _ _ _

/-! ### The result -/

/-- What the last segment leaves in the result buffer is the reference's result stage of the launch arguments. -/
theorem result_eq : W5 m ρ c (Proc.devRef .tc main_v60) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (last_result (W4 m ρ c)).trans ?_
  rw [W4_src, W4_dst, W4_wt, W4_product, W4_arg5]
  exact (ref_result _ _ _ _ _ _).symm

end Run

end Cert.KernelIdeal.Walk

end
-- ==== Proof.lean ====
/- The two programs compute one two-layer graph convolution. With `s`, `d` the edge endpoints followed by one self-loop per
   node, `deg` the number of edges arriving at a node, `norm e = deg(s e)^(-1/2) * deg(d e)^(-1/2)`, and
   `agg h` the array whose row `v` is the sum over the edges `e` with `d e = v` of `norm e * h (s e)`, both compute
   `agg (relu (agg (x W1) + b1) W2) + b2`.  The kernel takes the two matrix products in blocks of 5000 rows on the
   TensorCore (the second with the bias and the relu folded into its prologue) and keeps the aggregation on the host;
   the reference does everything on the host.  At the ideal instance a change of float format is the identity and a
   blocked product is the whole product, so the two results are one function of the arguments: no law of arithmetic
   beyond that is used, and the precondition is never opened. -/
import proofs.«104894_j34067680592104_2_alg».proof.Defs
import proofs.«104894_j34067680592104_2_alg».proof.Proof.Gen.Kernel
import proofs.«104894_j34067680592104_2_alg».proof.Proof.Gen.Kernel.Skeleton
import proofs.«104894_j34067680592104_2_alg».proof.Proof.Gen.Kernel.Launch
import proofs.«104894_j34067680592104_2_alg».proof.Proof.Gen.Kernel.Points
import proofs.«104894_j34067680592104_2_alg».proof.Proof.Gen.Kernel.Frame
import proofs.«104894_j34067680592104_2_alg».proof.Proof.Gen.KernelIdeal
import proofs.«104894_j34067680592104_2_alg».proof.Proof.Gen.KernelIdeal.Skeleton
import proofs.«104894_j34067680592104_2_alg».proof.Proof.Gen.KernelIdeal.Launch
import proofs.«104894_j34067680592104_2_alg».proof.Proof.Gen.KernelIdeal.Points
import proofs.«104894_j34067680592104_2_alg».proof.Proof.Gen.KernelIdeal.Frame
import proofs.«104894_j34067680592104_2_alg».proof.Proof.Gen.ReferenceIdeal
import proofs.«104894_j34067680592104_2_alg».proof.Proof.Gen.ReferenceIdeal.Run
import proofs.«104894_j34067680592104_2_alg».proof.Proof.Gen.ReferenceIdeal.Read
import proofs.«104894_j34067680592104_2_alg».proof.Proof.Gen.Pre_finite_inputs
import proofs.«104894_j34067680592104_2_alg».proof.Proof.Run
import proofs.«104894_j34067680592104_2_alg».proof.Proof.Walk
import Idealize.ShloMosaic.Adequacy
import Idealize.ShloMosaic.Init

noncomputable section

namespace Cert.Proof

open Idealize.ShloMosaic Idealize.SL.Sem Cert.Kernel

/-- The word-level kernel, the idealized kernel and the idealized reference each run to the end without a fault and leave
    their arguments as launched. -/
theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, the idealized kernel and the idealized reference both end with the
    result buffer at the reference's last stage of those arguments. -/
theorem algebraic : Cert.algebraic_KernelIdeal_ReferenceIdeal := by
  intro m ρ m' ρ' _ hagree
  refine ⟨fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v84_eq, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
